-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S16x128 : Shape := ⟨2, ![16, 128]⟩
abbrev S100000x1 : Shape := ⟨2, ![100000, 1]⟩
abbrev S16x1 : Shape := ⟨2, ![16, 1]⟩
abbrev S1x16 : Shape := ⟨2, ![1, 16]⟩
abbrev S16x16 : Shape := ⟨2, ![16, 16]⟩

abbrev nBuf : Space → Nat
  | .hbm => 127
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S_, .f32⟩
  | .hbm, ⟨109, _⟩ => ⟨S16x128, .f32⟩
  | .hbm, ⟨110, _⟩ => ⟨S100000x1, .i32⟩
  | .hbm, ⟨111, _⟩ => ⟨S16x128, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S16, .f32⟩
  | .hbm, ⟨116, _⟩ => ⟨S100000x1, .i32⟩
  | .hbm, ⟨117, _⟩ => ⟨S16, .f32⟩
  | .hbm, ⟨118, _⟩ => ⟨S_, .f32⟩
  | .hbm, ⟨119, _⟩ => ⟨S_, .f32⟩
  | .hbm, ⟨120, _⟩ => ⟨S16, .f32⟩
  | .hbm, ⟨121, _⟩ => ⟨S16, .f32⟩
  | .hbm, ⟨122, _⟩ => ⟨S16x1, .f32⟩
  | .hbm, ⟨123, _⟩ => ⟨S16x128, .f32⟩
  | .hbm, ⟨124, _⟩ => ⟨S16x128, .f32⟩
  | .hbm, ⟨125, _⟩ => ⟨S1x16, .f32⟩
  | .hbm, ⟨126, _⟩ => ⟨S16x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S16x128, .f32⟩
  | .local _ .vmem, ⟨31, _⟩ => ⟨S128x16, .f32⟩
  | .local _ .vmem, ⟨32, _⟩ => ⟨S1x16, .f32⟩
  | .local _ .vmem, ⟨33, _⟩ => ⟨S16x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_call1_v0 : Ref sig .tc := ⟨.hbm, 119, rfl⟩
abbrev main_call1_v1 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S16x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  bcast_S_S16x128 : S_.BroadcastsInDim S16x128 (![] : Fin 0 → Fin S16x128.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  shapeCasts_S16_S1x16 : S16.ShapeCasts S1x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16x16 : S1x16.Broadcasts S16x16
  reduces_S16x16_S16 : S16x16.Reduces [1] S16
  shapeCasts_S16_S16x1 : S16.ShapeCasts S16x1
  broadcasts_S16x1_S16x16 : S16x1.Broadcasts S16x16
  inb_S16x16_S16x16_0_0 : ∀ a, (![0, 0] : Fin 2 → Nat) a + S16x16.size a ≤ S16x16.size a
  h_S16x16 : 0 < S16x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1
  dot_S16x128_S128x16_S16x16_1_0_0_1_n_n_wf : DotDims.WF S16x128 S128x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S16x128.size a ≤ S16x128.size a
  hwx6_0 : ∀ i : grid6.Coords, EltTy.bits .f32 = 32 ∨ (Rect.block (s := S16x128) S16x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x16.size a ≤ S16x16.size a
  hwx6_3 : ∀ i : grid6.Coords, EltTy.bits .f32 = 32 ∨ (Rect.block (s := S16x16) S16x16.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x128_S128x16_S16x16_1_0_0_1_n_n : DotDims S16x128 S128x16 S16x16 where
  lhsContracting := [1]
  rhsContracting := [0]
  lhsNonContracting := [0]
  rhsNonContracting := [1]
  lhsBatch := []
  rhsBatch := []
  wf := dot_S16x128_S128x16_S16x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v88) S16x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S16x16.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S16x128 : Shape := ⟨2, ![16, 128]⟩
abbrev S100000x1 : Shape := ⟨2, ![100000, 1]⟩
abbrev S16x1 : Shape := ⟨2, ![16, 1]⟩
abbrev S16x16 : Shape := ⟨2, ![16, 16]⟩
abbrev S1x16 : Shape := ⟨2, ![1, 16]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x128, .f32⟩
  | 45 => ⟨S1700000x1, .f32⟩
  | 46 => ⟨S1700000x128, .f32⟩
  | 47 => ⟨S1700000x128, .f32⟩
  | 48 => ⟨S_, .f32⟩
  | 49 => ⟨S100000x128, .f32⟩
  | 50 => ⟨S1700000x1, .i32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S16x128, .f32⟩
  | 60 => ⟨S100000x1, .i32⟩
  | 61 => ⟨S16x128, .f32⟩
  | 62 => ⟨S_, .f32⟩
  | 63 => ⟨S100000, .f32⟩
  | 64 => ⟨S_, .f32⟩
  | 65 => ⟨S16, .f32⟩
  | 66 => ⟨S100000x1, .i32⟩
  | 67 => ⟨S16, .f32⟩
  | 68 => ⟨S_, .f32⟩
  | 69 => ⟨S_, .f32⟩
  | 70 => ⟨S16, .f32⟩
  | 71 => ⟨S16, .f32⟩
  | 72 => ⟨S16x1, .f32⟩
  | 73 => ⟨S16x128, .f32⟩
  | 74 => ⟨S16x128, .f32⟩
  | 75 => ⟨S16x16, .f32⟩
  | 76 => ⟨S1x16, .f32⟩
  | 77 => ⟨S16x16, .f32⟩
  | 78 => ⟨S16x16, .f32⟩
  | 79 => ⟨S_, .f32⟩
  | 80 => ⟨S16, .f32⟩
  | 81 => ⟨S_, .f32⟩
  | 82 => ⟨S16, .f32⟩
  | 83 => ⟨S16, .f32⟩
  | 84 => ⟨S16x1, .f32⟩
  | 85 => ⟨S16x16, .f32⟩
  | 86 => ⟨S16x16, .f32⟩
  | 87 => ⟨S16x16, .f32⟩
  | 88 => ⟨S_, .f32⟩
  | 89 => ⟨S16, .f32⟩
  | 90 => ⟨S16x1, .f32⟩
  | 91 => ⟨S16x16, .f32⟩
  | 92 => ⟨S16x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_26 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_28 : Ref sig .tc := ⟨.hbm, 164, rfl⟩
abbrev main_v113 : Ref sig .tc := ⟨.hbm, 165, rfl⟩
abbrev main_v114 : Ref sig .tc := ⟨.hbm, 166, rfl⟩
abbrev main_c_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call5_cst : Ref sig .tc := ⟨.hbm, 183, rfl⟩
abbrev main_call5_v0 : Ref sig .tc := ⟨.hbm, 184, rfl⟩
abbrev main_v129 : Ref sig .tc := ⟨.hbm, 185, rfl⟩
abbrev main_cst_31 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_32 : Ref sig .tc := ⟨.hbm, 190, rfl⟩
abbrev main_v133 : Ref sig .tc := ⟨.hbm, 191, rfl⟩
abbrev main_cst_33 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_34 : Ref sig .tc := ⟨.hbm, 196, rfl⟩
abbrev main_call6_v0 : Ref sig .tc := ⟨.hbm, 197, rfl⟩
abbrev main_call6_v1 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_35 : Ref sig .tc := ⟨.hbm, 207, rfl⟩
abbrev main_v145 : Ref sig .tc := ⟨.hbm, 208, rfl⟩
abbrev main_cst_36 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_cst_37 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S16x128 : S_.BroadcastsInDim S16x128 (![] : Fin 0 → Fin S16x128.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  reducesTo_S16x16_S16_d1 : S16x16.ReducesTo [1] S16
  h_S_ : 0 < S_.numel
  bcast_S16x1_S16x16_0_1 : S16x1.BroadcastsInDim S16x16 (![0, 1] : Fin 2 → Fin S16x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1
  dot_S16x128_S128x16_S16x16_1_0_0_1_n_n_wf : DotDims.WF S16x128 S128x16 S16x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x128_S128x16_S16x16_1_0_0_1_n_n : DotDims S16x128 S128x16 S16x16 where
  lhsContracting := [1]
  rhsContracting := [0]
  lhsNonContracting := [0]
  rhsNonContracting := [1]
  lhsBatch := []
  rhsBatch := []
  wf := dot_S16x128_S128x16_S16x16_1_0_0_1_n_n_wf

class Facts : Prop extends Facts₀ where

variable [Facts]
-- ==== Proof.ResultRun.lean ====
/-
  The idealized kernel's run with its result named: every weakly fair execution of @main terminates, nothing faults,
  the eleven argument arrays end as launched, and the result array ends at what the last region leaves in it — the
  contents `W16 m ρ c` of the buffers after the sixteenth segment (nine stretches of host operations and seven
  regions), read at the result's buffer. The segments, their proof data and every entailment are the generated frame's;
  only the last step keeps the result's buffer beside the arguments.
-/
import proofs.«140700_j71116068488094_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v90) = W16 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v90 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.ResultRun

end
-- ==== Proof.Spec.lean ====
/-
  The three dense steps of the network, as functions of whole arrays read at an index, over the extended reals.

  * `matProd a w` at (p, c) is the textbook sum  ∑ₖ a(p, k) · w(k, c).
  * `biasRelu a b` at (p, c) is  max (a(p, c) + b(c)) z,  with `z` the word of the float zero.
  * `softmaxRows z` at (p, c) is  exp (z(p, c) − M p) / ∑ₖ exp (z(p, k) − M p),  where the row's top
    `M p = max ninf (fold max ninf (z(p, ·)))` starts from the word of −∞ (and meets it once more, as both
    programs do).
  No program is mentioned here; both programs' arrays are shown equal to these.
-/
import Idealize.ShloMosaic.Lib.ValueIdx
import Idealize.ShloMosaic.PureOps.Ideal.Laws

noncomputable section

open scoped BigOperators

namespace Cert.Dense

open Idealize.ShloMosaic Idealize.ShloMosaic.ValueIdx

/-- The matrix product at an entry. -/
def matProd {n K M : ℕ} (a : (⟨2, ![n, K]⟩ : Shape).Idx → EReal) (w : (⟨2, ![K, M]⟩ : Shape).Idx → EReal) :
    (⟨2, ![n, M]⟩ : Shape).Idx → EReal :=
  fun i => ∑ k : Fin K, a (ix2 (⟨(i 0).val, idx2_lt0 i⟩ : Fin n) k) * w (ix2 k (⟨(i 1).val, idx2_lt1 i⟩ : Fin M))

theorem matProd_apply {n K M : ℕ} (a : (⟨2, ![n, K]⟩ : Shape).Idx → EReal) (w : (⟨2, ![K, M]⟩ : Shape).Idx → EReal)
    (p : Fin n) (c : Fin M) : matProd a w (ix2 p c) = ∑ k : Fin K, a (ix2 p k) * w (ix2 k c) := rfl

/-- The word of the float zero, read on the extended reals (never evaluated: both programs carry the same word). -/
abbrev zeroWord : EReal := Ideal.ofBits .f32 0x00000000#32
/-- The word of −∞. -/
abbrev ninfWord : EReal := Ideal.ofBits .f32 0xFF800000#32

/-- A bias row added to every row of a matrix, then the rectifier. -/
def biasRelu {n d : ℕ} (a : (⟨2, ![n, d]⟩ : Shape).Idx → EReal) (b : (⟨1, ![d]⟩ : Shape).Idx → EReal) :
    (⟨2, ![n, d]⟩ : Shape).Idx → EReal :=
  fun i => max (a i + b (ix1 (⟨(i 1).val, idx2_lt1 i⟩ : Fin d))) zeroWord

theorem biasRelu_apply {n d : ℕ} (a : (⟨2, ![n, d]⟩ : Shape).Idx → EReal) (b : (⟨1, ![d]⟩ : Shape).Idx → EReal)
    (p : Fin n) (c : Fin d) : biasRelu a b (ix2 p c) = max (a (ix2 p c) + b (ix1 c)) zeroWord := rfl

/-- The top of row `p`. -/
def rowTop {n d : ℕ} (z : (⟨2, ![n, d]⟩ : Shape).Idx → EReal) (p : Fin n) : EReal :=
  max ninfWord ((Finset.univ : Finset (Fin d)).fold max ninfWord (fun k : Fin d => z (ix2 p k)))

/-- The softmax of every row. -/
def softmaxRows {n d : ℕ} (z : (⟨2, ![n, d]⟩ : Shape).Idx → EReal) : (⟨2, ![n, d]⟩ : Shape).Idx → EReal :=
  fun i => Ideal.div (Ideal.exp (z i - rowTop z (⟨(i 0).val, idx2_lt0 i⟩ : Fin n)))
    (∑ k : Fin d, Ideal.exp (z (ix2 (⟨(i 0).val, idx2_lt0 i⟩ : Fin n) k) - rowTop z (⟨(i 0).val, idx2_lt0 i⟩ : Fin n)))

theorem softmaxRows_apply {n d : ℕ} (z : (⟨2, ![n, d]⟩ : Shape).Idx → EReal) (p : Fin n) (c : Fin d) :
    softmaxRows z (ix2 p c) = Ideal.div (Ideal.exp (z (ix2 p c) - rowTop z p)) (∑ k : Fin d, Ideal.exp (z (ix2 p k) - rowTop z p)) := rfl

/-- A row of biases added to every row of a matrix (the logits of the last layer). -/
def addRow {n d : ℕ} (a : (⟨2, ![n, d]⟩ : Shape).Idx → EReal) (b : (⟨1, ![d]⟩ : Shape).Idx → EReal) :
    (⟨2, ![n, d]⟩ : Shape).Idx → EReal :=
  fun i => a i + b (ix1 (⟨(i 1).val, idx2_lt1 i⟩ : Fin d))

theorem addRow_apply {n d : ℕ} (a : (⟨2, ![n, d]⟩ : Shape).Idx → EReal) (b : (⟨1, ![d]⟩ : Shape).Idx → EReal)
    (p : Fin n) (c : Fin d) : addRow a b (ix2 p c) = a (ix2 p c) + b (ix1 c) := rfl

/-- The same with the bias kept as a one-row matrix (how the programs hand it to the dense step). -/
def biasReluRow {n d : ℕ} (a : (⟨2, ![n, d]⟩ : Shape).Idx → EReal) (r : (⟨2, ![1, d]⟩ : Shape).Idx → EReal) :
    (⟨2, ![n, d]⟩ : Shape).Idx → EReal :=
  fun i => max (a i + r (ix2 (0 : Fin 1) (⟨(i 1).val, idx2_lt1 i⟩ : Fin d))) zeroWord

/-- With the one row holding the bias vector's entries, the two forms agree. -/
theorem biasReluRow_eq {n d : ℕ} (a : (⟨2, ![n, d]⟩ : Shape).Idx → EReal) (r : (⟨2, ![1, d]⟩ : Shape).Idx → EReal)
    (b : (⟨1, ![d]⟩ : Shape).Idx → EReal) (h : ∀ c : Fin d, r (ix2 (0 : Fin 1) c) = b (ix1 c)) :
    biasReluRow a r = biasRelu a b := by
  funext i; unfold biasReluRow biasRelu; rw [h]

/-- A one-row matrix added to every row. -/
def addRowRow {n d : ℕ} (a : (⟨2, ![n, d]⟩ : Shape).Idx → EReal) (r : (⟨2, ![1, d]⟩ : Shape).Idx → EReal) :
    (⟨2, ![n, d]⟩ : Shape).Idx → EReal :=
  fun i => a i + r (ix2 (0 : Fin 1) (⟨(i 1).val, idx2_lt1 i⟩ : Fin d))

theorem addRowRow_eq {n d : ℕ} (a : (⟨2, ![n, d]⟩ : Shape).Idx → EReal) (r : (⟨2, ![1, d]⟩ : Shape).Idx → EReal)
    (b : (⟨1, ![d]⟩ : Shape).Idx → EReal) (h : ∀ c : Fin d, r (ix2 (0 : Fin 1) c) = b (ix1 c)) :
    addRowRow a r = addRow a b := by
  funext i; unfold addRowRow addRow; rw [h]

end Cert.Dense

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Region0.lean ====
/-
  Region 0 (a matrix product tiled over 50 blocks of 2000 rows): after the region, the output array is the
  matrix product of the two operand arrays as the region finds them, whatever those are.

  Block `t` of the output is the product of block `t` of the left operand (rows 2000·t … 2000·t + 1999) with the
  whole right operand; an entry (2000·t + p, c) of the product depends only on row 2000·t + p of the left operand,
  so the blocks are the restrictions of one whole product, and the 50 blocks cover every row.
-/
import proofs.«140700_j71116068488094_1_alg».proof.Proof.Gen.KernelIdeal.Frame
import proofs.«140700_j71116068488094_1_alg».proof.Proof.Spec
import proofs.«140700_j71116068488094_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's product at an entry: the sum over the 128 contracted positions. -/
theorem payload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.PlainDot.matmul_zero_apply (n := 2000) (K := 128) (M := 128) dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    none _ _ p q

/-- The printed index maps over the 50 points: the left operand's and the output's blocks move together down the rows,
    the right operand's block stays. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 49 :=
  (by decide +kernel : ∀ t : Fin grid0.N, _)

/-- Every one of the 50 row blocks is some point's. -/
theorem index_onto : ∀ q : Fin 50, ∃ t : Fin cfg0.N, win0_2.index t = ![q.val, 0] :=
  (by decide +kernel : ∀ q : Fin 50, ∃ t : Fin grid0.N, win0_2.index t = ![q.val, 0])

/-- What point `t` writes back is block `t` of the whole product. -/
theorem flushed_eq (c : Dev nD) (t : Fin cfg0.N) :
    (dat0 V c).flushed 2 t = ((cfg0.win 2).blk t).view.read (Elt Ideal)
      (Cert.Dense.matProd (n := 100000) (K := 128) (M := 128) (V c main_arg0) (V c main_arg3)) := by
  show (cfg0.win 2).cut (grid0.coords t) ((dat0 V c).after 2 t) = _
  rw [after0_2]
  unfold out0_2
  rw [View.canon_unit_zero zeroStart]
  simp only [View.ld_unit_zero (S := S2000x128) zeroStart, View.ld_unit_zero (S := S128x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.matProd (n := 100000) (K := 128) (M := 128) (V c main_arg0) (V c main_arg3) (((cfg0.win 2).blk t).view.emb (ix2 p q))
  unfold Cert.Dense.matProd
  refine Finset.sum_congr rfl fun k _ => ?_
  have h0 : ((cfg0.win 0).blk t).view.emb (ix2 p k)
      = ix2 (⟨((((cfg0.win 2).blk t).view.emb (ix2 p q)) 0).val, idx2_lt0 _⟩ : Fin 100000) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q)
      = ix2 k (⟨((((cfg0.win 2).blk t).view.emb (ix2 p q)) 1).val, idx2_lt1 _⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have e0 : iblk0 V c 0 t (ix2 p k)
      = V c main_arg0 (ix2 (⟨((((cfg0.win 2).blk t).view.emb (ix2 p q)) 0).val, idx2_lt0 _⟩ : Fin 100000) k) := by
    show V c main_arg0 (((cfg0.win 0).blk t).view.emb (ix2 p k)) = _
    rw [h0]
  have e1 : iblk0 V c 1 t (ix2 k q)
      = V c main_arg3 (ix2 k (⟨((((cfg0.win 2).blk t).view.emb (ix2 p q)) 1).val, idx2_lt1 _⟩ : Fin 128)) := by
    show V c main_arg3 (((cfg0.win 1).blk t).view.emb (ix2 k q)) = _
    rw [h1]
  exact congrArg₂ (fun x y : EReal => x * y) e0 e1

/-- An index of the output array lies in point `t`'s block iff each coordinate lies in the block's range. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every entry of the output is in some point's block: row `r` is in block `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region. -/
theorem final (c : Dev nD) :
    (dat0 V c).arrAt 2 cfg0.N = Cert.Dense.matProd (n := 100000) (K := 128) (M := 128) (V c main_arg0) (V c main_arg3) :=
  (dat0 V c).arrAt_eq_of_cover 2 _ (fun t _ => flushed_eq V c t) covered

end Cert.KernelIdeal.Region0

end
-- ==== Proof.Region1.lean ====
/-
  Region 1 (a bias row added to every row, then the rectifier, tiled over 50 blocks of 2000 rows): after the region
  the output array is  max (h(p, c) + row(0, c)) z  of the two operand arrays as the region finds them — `h` the matrix,
  `row` the one-row matrix of biases — whatever those are.

  An entry of block `t` depends on the same entry of `h`'s block `t` and on the bias of its column only, so the blocks
  are the restrictions of one whole-array function, and the 50 blocks cover every row.
-/
import proofs.«140700_j71116068488094_1_alg».proof.Proof.Gen.KernelIdeal.Frame
import proofs.«140700_j71116068488094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's entry: the matrix entry plus its column's bias, rectified. (The three recasts to the same shape are
    identities, and the one-row matrix spread over 2000 rows reads its column.) -/
theorem payload_apply (x1 : Vec Ideal S1x128 .f32) (x0 : Vec Ideal S2000x128 .f32) (p : Fin 2000) (q : Fin 128) :
    k1_pay1 (F := Ideal) x1 x0 (ix2 p q) = max ((x0 (ix2 p q) : EReal) + (x1 (ix2 (0 : Fin 1) q) : EReal)) Cert.Dense.zeroWord := by
  unfold k1_pay1
  simp only [shapeCast_self]
  show max ((x0 (ix2 p q) : EReal) + (broadcastTo S2000x128 x1 broadcasts_S1x128_S2000x128 (ix2 p q) : EReal)) _ = _
  rw [broadcastTo_1b_ab_apply]
  rfl

/-- The printed index maps over the 50 points: the matrix's and the output's blocks move together down the rows, the
    bias row's block stays. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 49 :=
  (by decide +kernel : ∀ t : Fin grid1.N, _)

/-- Every one of the 50 row blocks is some point's. -/
theorem index_onto : ∀ q : Fin 50, ∃ t : Fin cfg1.N, win1_2.index t = ![q.val, 0] :=
  (by decide +kernel : ∀ q : Fin 50, ∃ t : Fin grid1.N, win1_2.index t = ![q.val, 0])

/-- What point `t` writes back is block `t` of the whole-array function. -/
theorem flushed_eq (c : Dev nD) (t : Fin cfg1.N) :
    (dat1 V c).flushed 2 t = ((cfg1.win 2).blk t).view.read (Elt Ideal)
      (Cert.Dense.biasReluRow (n := 100000) (d := 128) (V c main_v43) (V c main_v44)) := by
  show (cfg1.win 2).cut (grid1.coords t) ((dat1 V c).after 2 t) = _
  rw [after1_2]
  unfold out1_2
  rw [View.canon_unit_zero zeroStart]
  simp only [View.ld_unit_zero (S := S2000x128) zeroStart, View.ld_unit_zero (S := S1x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.biasReluRow (n := 100000) (d := 128) (V c main_v43) (V c main_v44) (((cfg1.win 2).blk t).view.emb (ix2 p q))
  unfold Cert.Dense.biasReluRow
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨((((cfg1.win 2).blk t).view.emb (ix2 p q)) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have e0 : iblk1 V c 0 t (ix2 p q) = V c main_v43 (((cfg1.win 2).blk t).view.emb (ix2 p q)) := by
    show V c main_v43 (((cfg1.win 0).blk t).view.emb (ix2 p q)) = _
    rw [h0]
  have e1 : iblk1 V c 1 t (ix2 (0 : Fin 1) q)
      = V c main_v44 (ix2 (0 : Fin 1) (⟨((((cfg1.win 2).blk t).view.emb (ix2 p q)) 1).val, idx2_lt1 _⟩ : Fin 128)) := by
    show V c main_v44 (((cfg1.win 1).blk t).view.emb (ix2 (0 : Fin 1) q)) = _
    rw [h1]
  exact congrArg₂ (fun x y : EReal => max (x + y) Cert.Dense.zeroWord) e0 e1

/-- An index of the output array lies in point `t`'s block iff each coordinate lies in the block's range. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every entry of the output is in some point's block: row `r` is in block `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region. -/
theorem final (c : Dev nD) :
    (dat1 V c).arrAt 2 cfg1.N = Cert.Dense.biasReluRow (n := 100000) (d := 128) (V c main_v43) (V c main_v44) :=
  (dat1 V c).arrAt_eq_of_cover 2 _ (fun t _ => flushed_eq V c t) covered

end Cert.KernelIdeal.Region1

end
-- ==== Proof.Region2.lean ====
/-
  Region 2 (a matrix product tiled over 50 blocks of 2000 rows): after the region, the output array is the
  matrix product of the two operand arrays as the region finds them, whatever those are.

  Block `t` of the output is the product of block `t` of the left operand (rows 2000·t … 2000·t + 1999) with the
  whole right operand; an entry (2000·t + p, c) of the product depends only on row 2000·t + p of the left operand,
  so the blocks are the restrictions of one whole product, and the 50 blocks cover every row.
-/
import proofs.«140700_j71116068488094_1_alg».proof.Proof.Gen.KernelIdeal.Frame
import proofs.«140700_j71116068488094_1_alg».proof.Proof.Spec
import proofs.«140700_j71116068488094_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's product at an entry: the sum over the 128 contracted positions. -/
theorem payload_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  simp only [shapeCast_self]
  exact Cert.PlainDot.matmul_zero_apply (n := 2000) (K := 128) (M := 128) dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    none _ _ p q

/-- The printed index maps over the 50 points: the left operand's and the output's blocks move together down the rows,
    the right operand's block stays. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 49 :=
  (by decide +kernel : ∀ t : Fin grid2.N, _)

/-- Every one of the 50 row blocks is some point's. -/
theorem index_onto : ∀ q : Fin 50, ∃ t : Fin cfg2.N, win2_2.index t = ![q.val, 0] :=
  (by decide +kernel : ∀ q : Fin 50, ∃ t : Fin grid2.N, win2_2.index t = ![q.val, 0])

/-- What point `t` writes back is block `t` of the whole product. -/
theorem flushed_eq (c : Dev nD) (t : Fin cfg2.N) :
    (dat2 V c).flushed 2 t = ((cfg2.win 2).blk t).view.read (Elt Ideal)
      (Cert.Dense.matProd (n := 100000) (K := 128) (M := 128) (V c main_v45) (V c main_arg5)) := by
  show (cfg2.win 2).cut (grid2.coords t) ((dat2 V c).after 2 t) = _
  rw [after2_2]
  unfold out2_2
  rw [View.canon_unit_zero zeroStart]
  simp only [View.ld_unit_zero (S := S2000x128) zeroStart, View.ld_unit_zero (S := S128x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.matProd (n := 100000) (K := 128) (M := 128) (V c main_v45) (V c main_arg5) (((cfg2.win 2).blk t).view.emb (ix2 p q))
  unfold Cert.Dense.matProd
  refine Finset.sum_congr rfl fun k _ => ?_
  have h0 : ((cfg2.win 0).blk t).view.emb (ix2 p k)
      = ix2 (⟨((((cfg2.win 2).blk t).view.emb (ix2 p q)) 0).val, idx2_lt0 _⟩ : Fin 100000) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q)
      = ix2 k (⟨((((cfg2.win 2).blk t).view.emb (ix2 p q)) 1).val, idx2_lt1 _⟩ : Fin 128) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have e0 : iblk2 V c 0 t (ix2 p k)
      = V c main_v45 (ix2 (⟨((((cfg2.win 2).blk t).view.emb (ix2 p q)) 0).val, idx2_lt0 _⟩ : Fin 100000) k) := by
    show V c main_v45 (((cfg2.win 0).blk t).view.emb (ix2 p k)) = _
    rw [h0]
  have e1 : iblk2 V c 1 t (ix2 k q)
      = V c main_arg5 (ix2 k (⟨((((cfg2.win 2).blk t).view.emb (ix2 p q)) 1).val, idx2_lt1 _⟩ : Fin 128)) := by
    show V c main_arg5 (((cfg2.win 1).blk t).view.emb (ix2 k q)) = _
    rw [h1]
  exact congrArg₂ (fun x y : EReal => x * y) e0 e1

/-- An index of the output array lies in point `t`'s block iff each coordinate lies in the block's range. -/
theorem mem_block (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every entry of the output is in some point's block: row `r` is in block `r / 2000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region. -/
theorem final (c : Dev nD) :
    (dat2 V c).arrAt 2 cfg2.N = Cert.Dense.matProd (n := 100000) (K := 128) (M := 128) (V c main_v45) (V c main_arg5) :=
  (dat2 V c).arrAt_eq_of_cover 2 _ (fun t _ => flushed_eq V c t) covered

end Cert.KernelIdeal.Region2

end
-- ==== Proof.Region3.lean ====
/-
  Region 3 (a bias row added to every row, then the rectifier, tiled over 50 blocks of 2000 rows): after the region
  the output array is  max (h(p, c) + row(0, c)) z  of the two operand arrays as the region finds them — `h` the matrix,
  `row` the one-row matrix of biases — whatever those are.

  An entry of block `t` depends on the same entry of `h`'s block `t` and on the bias of its column only, so the blocks
  are the restrictions of one whole-array function, and the 50 blocks cover every row.
-/
import proofs.«140700_j71116068488094_1_alg».proof.Proof.Gen.KernelIdeal.Frame
import proofs.«140700_j71116068488094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's entry: the matrix entry plus its column's bias, rectified. (The three recasts to the same shape are
    identities, and the one-row matrix spread over 2000 rows reads its column.) -/
theorem payload_apply (x1 : Vec Ideal S1x128 .f32) (x0 : Vec Ideal S2000x128 .f32) (p : Fin 2000) (q : Fin 128) :
    k3_pay1 (F := Ideal) x1 x0 (ix2 p q) = max ((x0 (ix2 p q) : EReal) + (x1 (ix2 (0 : Fin 1) q) : EReal)) Cert.Dense.zeroWord := by
  unfold k3_pay1
  simp only [shapeCast_self]
  show max ((x0 (ix2 p q) : EReal) + (broadcastTo S2000x128 x1 broadcasts_S1x128_S2000x128 (ix2 p q) : EReal)) _ = _
  rw [broadcastTo_1b_ab_apply]
  rfl

/-- The printed index maps over the 50 points: the matrix's and the output's blocks move together down the rows, the
    bias row's block stays. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 49 :=
  (by decide +kernel : ∀ t : Fin grid3.N, _)

/-- Every one of the 50 row blocks is some point's. -/
theorem index_onto : ∀ q : Fin 50, ∃ t : Fin cfg3.N, win3_2.index t = ![q.val, 0] :=
  (by decide +kernel : ∀ q : Fin 50, ∃ t : Fin grid3.N, win3_2.index t = ![q.val, 0])

/-- What point `t` writes back is block `t` of the whole-array function. -/
theorem flushed_eq (c : Dev nD) (t : Fin cfg3.N) :
    (dat3 V c).flushed 2 t = ((cfg3.win 2).blk t).view.read (Elt Ideal)
      (Cert.Dense.biasReluRow (n := 100000) (d := 128) (V c main_v59) (V c main_v60)) := by
  show (cfg3.win 2).cut (grid3.coords t) ((dat3 V c).after 2 t) = _
  rw [after3_2]
  unfold out3_2
  rw [View.canon_unit_zero zeroStart]
  simp only [View.ld_unit_zero (S := S2000x128) zeroStart, View.ld_unit_zero (S := S1x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.biasReluRow (n := 100000) (d := 128) (V c main_v59) (V c main_v60) (((cfg3.win 2).blk t).view.emb (ix2 p q))
  unfold Cert.Dense.biasReluRow
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) (⟨((((cfg3.win 2).blk t).view.emb (ix2 p q)) 1).val, idx2_lt1 _⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  have e0 : iblk3 V c 0 t (ix2 p q) = V c main_v59 (((cfg3.win 2).blk t).view.emb (ix2 p q)) := by
    show V c main_v59 (((cfg3.win 0).blk t).view.emb (ix2 p q)) = _
    rw [h0]
  have e1 : iblk3 V c 1 t (ix2 (0 : Fin 1) q)
      = V c main_v60 (ix2 (0 : Fin 1) (⟨((((cfg3.win 2).blk t).view.emb (ix2 p q)) 1).val, idx2_lt1 _⟩ : Fin 128)) := by
    show V c main_v60 (((cfg3.win 1).blk t).view.emb (ix2 (0 : Fin 1) q)) = _
    rw [h1]
  exact congrArg₂ (fun x y : EReal => max (x + y) Cert.Dense.zeroWord) e0 e1

/-- An index of the output array lies in point `t`'s block iff each coordinate lies in the block's range. -/
theorem mem_block (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every entry of the output is in some point's block: row `r` is in block `r / 2000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the region. -/
theorem final (c : Dev nD) :
    (dat3 V c).arrAt 2 cfg3.N = Cert.Dense.biasReluRow (n := 100000) (d := 128) (V c main_v59) (V c main_v60) :=
  (dat3 V c).arrAt_eq_of_cover 2 _ (fun t _ => flushed_eq V c t) covered

end Cert.KernelIdeal.Region3

end
-- ==== Proof.Region4.lean ====
/-
  Region 4 (a matrix product tiled over 50 blocks of 2000 rows): after the region, the output array is the
  matrix product of the two operand arrays as the region finds them, whatever those are.

  Block `t` of the output is the product of block `t` of the left operand (rows 2000·t … 2000·t + 1999) with the
  whole right operand; an entry (2000·t + p, c) of the product depends only on row 2000·t + p of the left operand,
  so the blocks are the restrictions of one whole product, and the 50 blocks cover every row.
-/
import proofs.«140700_j71116068488094_1_alg».proof.Proof.Gen.KernelIdeal.Frame
import proofs.«140700_j71116068488094_1_alg».proof.Proof.Spec
import proofs.«140700_j71116068488094_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's product at an entry: the sum over the 128 contracted positions. -/
theorem payload_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  simp only [shapeCast_self]
  exact Cert.PlainDot.matmul_zero_apply (n := 2000) (K := 128) (M := 128) dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    none _ _ p q

/-- The printed index maps over the 50 points: the left operand's and the output's blocks move together down the rows,
    the right operand's block stays. -/
theorem index_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 49 :=
  (by decide +kernel : ∀ t : Fin grid4.N, _)

/-- Every one of the 50 row blocks is some point's. -/
theorem index_onto : ∀ q : Fin 50, ∃ t : Fin cfg4.N, win4_2.index t = ![q.val, 0] :=
  (by decide +kernel : ∀ q : Fin 50, ∃ t : Fin grid4.N, win4_2.index t = ![q.val, 0])

/-- What point `t` writes back is block `t` of the whole product. -/
theorem flushed_eq (c : Dev nD) (t : Fin cfg4.N) :
    (dat4 V c).flushed 2 t = ((cfg4.win 2).blk t).view.read (Elt Ideal)
      (Cert.Dense.matProd (n := 100000) (K := 128) (M := 128) (V c main_v61) (V c main_arg7)) := by
  show (cfg4.win 2).cut (grid4.coords t) ((dat4 V c).after 2 t) = _
  rw [after4_2]
  unfold out4_2
  rw [View.canon_unit_zero zeroStart]
  simp only [View.ld_unit_zero (S := S2000x128) zeroStart, View.ld_unit_zero (S := S128x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.matProd (n := 100000) (K := 128) (M := 128) (V c main_v61) (V c main_arg7) (((cfg4.win 2).blk t).view.emb (ix2 p q))
  unfold Cert.Dense.matProd
  refine Finset.sum_congr rfl fun k _ => ?_
  have h0 : ((cfg4.win 0).blk t).view.emb (ix2 p k)
      = ix2 (⟨((((cfg4.win 2).blk t).view.emb (ix2 p q)) 0).val, idx2_lt0 _⟩ : Fin 100000) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have h1 : ((cfg4.win 1).blk t).view.emb (ix2 k q)
      = ix2 k (⟨((((cfg4.win 2).blk t).view.emb (ix2 p q)) 1).val, idx2_lt1 _⟩ : Fin 128) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  have e0 : iblk4 V c 0 t (ix2 p k)
      = V c main_v61 (ix2 (⟨((((cfg4.win 2).blk t).view.emb (ix2 p q)) 0).val, idx2_lt0 _⟩ : Fin 100000) k) := by
    show V c main_v61 (((cfg4.win 0).blk t).view.emb (ix2 p k)) = _
    rw [h0]
  have e1 : iblk4 V c 1 t (ix2 k q)
      = V c main_arg7 (ix2 k (⟨((((cfg4.win 2).blk t).view.emb (ix2 p q)) 1).val, idx2_lt1 _⟩ : Fin 128)) := by
    show V c main_arg7 (((cfg4.win 1).blk t).view.emb (ix2 k q)) = _
    rw [h1]
  exact congrArg₂ (fun x y : EReal => x * y) e0 e1

/-- An index of the output array lies in point `t`'s block iff each coordinate lies in the block's range. -/
theorem mem_block (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v62).slice (win4_2.rect t)).set ↔ _
  rw [View.set_slice_whole, Rect.mem_set_unit]
  exact Iff.rfl

/-- Every entry of the output is in some point's block: row `r` is in block `r / 2000`. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := index_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after the region. -/
theorem final (c : Dev nD) :
    (dat4 V c).arrAt 2 cfg4.N = Cert.Dense.matProd (n := 100000) (K := 128) (M := 128) (V c main_v61) (V c main_arg7) :=
  (dat4 V c).arrAt_eq_of_cover 2 _ (fun t _ => flushed_eq V c t) covered

end Cert.KernelIdeal.Region4

end
-- ==== Proof.Region5.lean ====
/-
  Region 5 (a bias row added to every row, then the rectifier, tiled over 50 blocks of 2000 rows): after the region
  the output array is  max (h(p, c) + row(0, c)) z  of the two operand arrays as the region finds them — `h` the matrix,
  `row` the one-row matrix of biases — whatever those are.

  An entry of block `t` depends on the same entry of `h`'s block `t` and on the bias of its column only, so the blocks
  are the restrictions of one whole-array function, and the 50 blocks cover every row.
-/
import proofs.«140700_j71116068488094_1_alg».proof.Proof.Gen.KernelIdeal.Frame
import proofs.«140700_j71116068488094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The block's entry: the matrix entry plus its column's bias, rectified. (The three recasts to the same shape are
    identities, and the one-row matrix spread over 2000 rows reads its column.) -/
theorem payload_apply (x1 : Vec Ideal S1x128 .f32) (x0 : Vec Ideal S2000x128 .f32) (p : Fin 2000) (q : Fin 128) :
    k5_pay1 (F := Ideal) x1 x0 (ix2 p q) = max ((x0 (ix2 p q) : EReal) + (x1 (ix2 (0 : Fin 1) q) : EReal)) Cert.Dense.zeroWord := by
  unfold k5_pay1
  simp only [shapeCast_self]
  show max ((x0 (ix2 p q) : EReal) + (broadcastTo S2000x128 x1 broadcasts_S1x128_S2000x128 (ix2 p q) : EReal)) _ = _
  rw [broadcastTo_1b_ab_apply]
  rfl

/-- The printed index maps over the 50 points: the matrix's and the output's blocks move together down the rows, the
    bias row's block stays. -/
theorem index_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 49 :=
  (by decide +kernel : ∀ t : Fin grid5.N, _)

/-- Every one of the 50 row blocks is some point's. -/
theorem index_onto : ∀ q : Fin 50, ∃ t : Fin cfg5.N, win5_2.index t = ![q.val, 0] :=
  (by decide +kernel : ∀ q : Fin 50, ∃ t : Fin grid5.N, win5_2.index t = ![q.val, 0])

/-- What point `t` writes back is block `t` of the whole-array function. -/
theorem flushed_eq (c : Dev nD) (t : Fin cfg5.N) :
    (dat5 V c).flushed 2 t = ((cfg5.win 2).blk t).view.read (Elt Ideal)
      (Cert.Dense.biasReluRow (n := 100000) (d := 128) (V c main_v75) (V c main_v76)) := by
  show (cfg5.win 2).cut (grid5.coords t) ((dat5 V c).after 2 t) = _
  rw [after5_2]
  unfold out5_2
  rw [View.canon_unit_zero zeroStart]
  simp only [View.ld_unit_zero (S := S2000x128) zeroStart, View.ld_unit_zero (S := S1x128) zeroStart]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_apply _ _ p q).trans ?_
  show _ = Cert.Dense.biasReluRow (n := 100000) (d := 128) (V c main_v75) (V c main_v76) (((cfg5.win 2).blk t).view.emb (ix2 p q))
  unfold Cert.Dense.biasReluRow
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q)
      = ix2 (0 : Fin 1) (⟨((((cfg5.win 2).blk t).view.emb (ix2 p q)) 1).val, idx2_lt1 _⟩ : Fin 128) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  have e0 : iblk5 V c 0 t (ix2 p q) = V c main_v75 (((cfg5.win 2).blk t).view.emb (ix2 p q)) := by
    show V c main_v75 (((cfg5.win 0).blk t).view.emb (ix2 p q)) = _
    rw [h0]
  have e1 : iblk5 V c 1 t (ix2 (0 : Fin 1) q)
      = V c main_v76 (ix2 (0 : Fin 1) (⟨((((cfg5.win 2).blk t).view.emb (ix2 p q)) 1).val, idx2_lt1 _⟩ : Fin 128)) := by
    show V c main_v76 (((cfg5.win 1).blk t).view.emb (ix2 (0 : Fin 1) q)) = _
    rw [h1]
  exact congrArg₂ (fun x y : EReal => max (x + y) Cert.Dense.zeroWord) e0 e1

/-- An index of the output array lies in point `t`'s block iff each coordinate lies in the block's range. -/
theorem mem_block (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v77).slice (win5_2.rect t)).set ↔ _
  rw [View.set_slice_whole, Rect.mem_set_unit]
  exact Iff.rfl

/-- Every entry of the output is in some point's block: row `r` is in block `r / 2000`. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := index_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The output array after the region. -/
theorem final (c : Dev nD) :
    (dat5 V c).arrAt 2 cfg5.N = Cert.Dense.biasReluRow (n := 100000) (d := 128) (V c main_v75) (V c main_v76) :=
  (dat5 V c).arrAt_eq_of_cover 2 _ (fun t _ => flushed_eq V c t) covered

end Cert.KernelIdeal.Region5

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.Region6.lean ====
/-
  Region 6 (the last dense layer and the softmax, one grid point, every block a whole array): after the region the
  output array is  softmax over each row of  pooled · Wf + bf,  read on the extended reals, of the three operand arrays
  as the region finds them, whatever those are.

  The body's value splits in two: the logits  z = x0 · x1 + row  (a matrix product into the zero accumulator plus the
  one-row bias spread over the 16 rows), and the row softmax of `z`: the row's top from −∞, the exponentials of the
  differences, their row sum, the quotient.
-/
import proofs.«140700_j71116068488094_1_alg».proof.Proof.Gen.KernelIdeal.Frame
import proofs.«140700_j71116068488094_1_alg».proof.Proof.Spec
import proofs.«140700_j71116068488094_1_alg».proof.Proof.LibPlainDot
import proofs.«140700_j71116068488094_1_alg».proof.Proof.LibColumns
import proofs.«140700_j71116068488094_1_alg».proof.Proof.LibRowMax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroStart : (![0, 0] : Fin 2 → Nat) = fun _ => 0 := funext fun a => by fin_cases a <;> rfl

/-- The logits as the body spells them. -/
def rawLogits (x0 : Vec Ideal S16x128 .f32) (x1 : Vec Ideal S128x16 .f32) (x2 : Vec Ideal S1x16 .f32) : FVec Ideal S16x16 .f32 :=
  addf (matmul dot_S16x128_S128x16_S16x16_1_0_0_1_n_n none
      (truncf .bf16 (shapeCast S16x128 x0 shapeCasts_S16x128_S16x128) bitsLt_bf16_f32) (truncf .bf16 x1 bitsLt_bf16_f32)
      (constant S16x16 .f32 0x00000000#32))
    (broadcastTo S16x16 (shapeCast S1x16 x2 shapeCasts_S1x16_S1x16) broadcasts_S1x16_S16x16)

/-- The rows' tops as the body spells them: the maximum with the word of −∞ of the row maximum from −∞. -/
def topVec (z : FVec Ideal S16x16 .f32) : FVec Ideal S16 .f32 :=
  maximumf (broadcast S16 (Scalar.ofBits (F := Ideal) .f32 0xFF800000#32))
    (multiReduction .maximumf [1] S16 z 0xFF800000#32 reduces_S16x16_S16 (.inl rfl) rfl)

/-- The exponentials of the differences to the row's top. -/
def expVec (z : FVec Ideal S16x16 .f32) : FVec Ideal S16x16 .f32 :=
  exp (subf z (broadcastTo S16x16 (shapeCast S16x1 (topVec z) shapeCasts_S16_S16x1) broadcasts_S16x1_S16x16))

/-- The row softmax as the body spells it. -/
def rowSoftmax (z : FVec Ideal S16x16 .f32) : FVec Ideal S16x16 .f32 :=
  divf (expVec z)
    (broadcastTo S16x16 (shapeCast S16x1
      (multiReduction .add [1] S16 (expVec z) 0x00000000#32 reduces_S16x16_S16 (.inl rfl) rfl) shapeCasts_S16_S16x1) broadcasts_S16x1_S16x16)

/-- The body's value is the row softmax of the logits. -/
theorem payload_split (x0 : Vec Ideal S16x128 .f32) (x1 : Vec Ideal S128x16 .f32) (x2 : Vec Ideal S1x16 .f32) :
    k6_pay1 (F := Ideal) x0 x1 x2 = rowSoftmax (rawLogits x0 x1 x2) := rfl

/-- The logits at an entry: the product's sum plus the column's bias. -/
theorem rawLogits_eq (x0 : Vec Ideal S16x128 .f32) (x1 : Vec Ideal S128x16 .f32) (x2 : Vec Ideal S1x16 .f32) :
    rawLogits x0 x1 x2 = Cert.Dense.addRowRow (n := 16) (d := 16) (Cert.Dense.matProd (n := 16) (K := 128) (M := 16) x0 x1) x2 := by
  funext i
  obtain ⟨a, b, rfl⟩ : ∃ (a : Fin 16) (b : Fin 16), i = ix2 a b := ⟨i 0, i 1, eq_ix2 i⟩
  unfold rawLogits
  rw [shapeCast_self, shapeCast_self]
  rw [addf_apply, broadcastTo_1b_ab_apply]
  refine (congrArg (fun s : EReal => s + (x2 (ix2 (0 : Fin 1) b) : EReal))
    (Cert.PlainDot.matmul_zero_apply (n := 16) (K := 128) (M := 16) dot_S16x128_S128x16_S16x16_1_0_0_1_n_n rfl rfl
    (fun i q => by
      unfold DotDims.lhsIdx
      rw [dif_neg (show ¬(0 : Fin S16x128.rank) ∈ dot_S16x128_S128x16_S16x16_1_0_0_1_n_n.lhsBatch by decide), dif_pos (show (0 : Fin S16x128.rank) ∈ dot_S16x128_S128x16_S16x16_1_0_0_1_n_n.lhsNonContracting by decide)]
      rfl)
    (fun i q => dot_S16x128_S128x16_S16x16_1_0_0_1_n_n.lhsIdx_val_of_single rfl i q)
    (fun i q => dot_S16x128_S128x16_S16x16_1_0_0_1_n_n.rhsIdx_val_of_single rfl i q)
    (fun i q => by
      unfold DotDims.rhsIdx
      rw [dif_neg (show ¬(1 : Fin S128x16.rank) ∈ dot_S16x128_S128x16_S16x16_1_0_0_1_n_n.rhsBatch by decide), dif_pos (show (1 : Fin S128x16.rank) ∈ dot_S16x128_S128x16_S16x16_1_0_0_1_n_n.rhsNonContracting by decide)]
      rfl)
      none (truncf .bf16 x0 bitsLt_bf16_f32) (truncf .bf16 x1 bitsLt_bf16_f32) a b)).trans ?_
  rfl

/-- A vector of 16 recast as a column and spread over the 16 columns reads, at (r, k), its entry r. -/
theorem spread (v : FVec Ideal S16 .f32) (r k : Fin 16) :
    broadcastTo S16x16 (shapeCast S16x1 v shapeCasts_S16_S16x1) broadcasts_S16x1_S16x16 (ix2 r k) = v (ix1 r) :=
  (Cert.LibColumns.broadcastTo_a1_ab_apply _ _ r k).trans (Cert.LibColumns.shapeCast_a_a1_apply v _ r 0)

theorem topVec_apply (z : FVec Ideal S16x16 .f32) (r : Fin 16) : topVec z (ix1 r) = Cert.Dense.rowTop (n := 16) (d := 16) z r := by
  unfold topVec Cert.Dense.rowTop
  exact congrArg (max _) (Cert.LibRowMax.rowMax_apply z _ reduces_S16x16_S16 (.inl rfl) rfl r)

theorem expVec_apply (z : FVec Ideal S16x16 .f32) (r k : Fin 16) :
    expVec z (ix2 r k) = Ideal.exp (z (ix2 r k) - Cert.Dense.rowTop (n := 16) (d := 16) z r) := by
  unfold expVec
  show Ideal.exp (z (ix2 r k) - broadcastTo S16x16 (shapeCast S16x1 (topVec z) shapeCasts_S16_S16x1) broadcasts_S16x1_S16x16 (ix2 r k)) = _
  rw [spread, topVec_apply]

/-- The body's row softmax is the row softmax of the specification. -/
theorem rowSoftmax_eq (z : FVec Ideal S16x16 .f32) : rowSoftmax z = Cert.Dense.softmaxRows (n := 16) (d := 16) z := by
  funext i
  obtain ⟨p, q, rfl⟩ : ∃ (p : Fin 16) (q : Fin 16), i = ix2 p q := ⟨i 0, i 1, eq_ix2 i⟩
  unfold rowSoftmax
  show Ideal.div (expVec z (ix2 p q)) (broadcastTo S16x16 (shapeCast S16x1
      (multiReduction .add [1] S16 (expVec z) 0x00000000#32 reduces_S16x16_S16 (.inl rfl) rfl) shapeCasts_S16_S16x1) broadcasts_S16x1_S16x16 (ix2 p q)) = _
  rw [spread, Cert.Dense.softmaxRows_apply, expVec_apply]
  refine congrArg (Ideal.div _) ?_
  refine (Cert.LibColumns.rowSum_apply (expVec z) _ reduces_S16x16_S16 (.inl rfl) rfl p).trans ?_
  exact Finset.sum_congr rfl fun k _ => expVec_apply z p k

/-- The body's value, as one function of its three blocks. -/
theorem payload_eq (x0 : Vec Ideal S16x128 .f32) (x1 : Vec Ideal S128x16 .f32) (x2 : Vec Ideal S1x16 .f32) :
    k6_pay1 (F := Ideal) x0 x1 x2
      = Cert.Dense.softmaxRows (n := 16) (d := 16)
          (Cert.Dense.addRowRow (n := 16) (d := 16) (Cert.Dense.matProd (n := 16) (K := 128) (M := 16) x0 x1) x2) := by
  rw [payload_split, rowSoftmax_eq, rawLogits_eq]

/-- The one point's blocks all sit at the origin. -/
theorem index_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Each input block is its whole array. -/
theorem block0 (c : Dev nD) (t : Fin cfg6.N) (y : S16x128.Idx) : iblk6 V c 0 t y = V c main_v88 y := by
  show V c main_v88 (((cfg6.win 0).blk t).view.emb y) = _
  refine congrArg (V c main_v88) ?_
  obtain ⟨e0, e1, e2, e3, e4, e5, e6, e7⟩ := index_facts t
  funext a; apply Fin.ext
  match a with
  | ⟨0, _⟩ => show win6_0.index t (0 : Fin 2) * 16 + 1 * (y 0).val = (y 0).val; omega
  | ⟨1, _⟩ => show win6_0.index t (1 : Fin 2) * 128 + 1 * (y 1).val = (y 1).val; omega
theorem block1 (c : Dev nD) (t : Fin cfg6.N) (y : S128x16.Idx) : iblk6 V c 1 t y = V c main_arg9 y := by
  show V c main_arg9 (((cfg6.win 1).blk t).view.emb y) = _
  refine congrArg (V c main_arg9) ?_
  obtain ⟨e0, e1, e2, e3, e4, e5, e6, e7⟩ := index_facts t
  funext a; apply Fin.ext
  match a with
  | ⟨0, _⟩ => show win6_1.index t (0 : Fin 2) * 128 + 1 * (y 0).val = (y 0).val; omega
  | ⟨1, _⟩ => show win6_1.index t (1 : Fin 2) * 16 + 1 * (y 1).val = (y 1).val; omega
theorem block2 (c : Dev nD) (t : Fin cfg6.N) (y : S1x16.Idx) : iblk6 V c 2 t y = V c main_v89 y := by
  show V c main_v89 (((cfg6.win 2).blk t).view.emb y) = _
  refine congrArg (V c main_v89) ?_
  obtain ⟨e0, e1, e2, e3, e4, e5, e6, e7⟩ := index_facts t
  funext a; apply Fin.ext
  match a with
  | ⟨0, _⟩ => show win6_2.index t (0 : Fin 2) * 1 + 1 * (y 0).val = (y 0).val; omega
  | ⟨1, _⟩ => show win6_2.index t (1 : Fin 2) * 16 + 1 * (y 1).val = (y 1).val; omega

/-- The region's result as one function of the three operand arrays. -/
def result (c : Dev nD) : S16x16.Idx → EReal :=
  Cert.Dense.softmaxRows (n := 16) (d := 16)
    (Cert.Dense.addRowRow (n := 16) (d := 16)
      (Cert.Dense.matProd (n := 16) (K := 128) (M := 16) (V c main_v88) (V c main_arg9)) (V c main_v89))

/-- Equal blocks and equal entries give equal results. -/
theorem result_congr (f0 f0' : S16x128.Idx → EReal) (f1 f1' : S128x16.Idx → EReal) (f2 f2' : S1x16.Idx → EReal)
    (h0 : f0 = f0') (h1 : f1 = f1') (h2 : f2 = f2') (i i' : S16x16.Idx) (hi : i = i') :
    Cert.Dense.softmaxRows (n := 16) (d := 16) (Cert.Dense.addRowRow (n := 16) (d := 16) (Cert.Dense.matProd (n := 16) (K := 128) (M := 16) f0 f1) f2) i
      = Cert.Dense.softmaxRows (n := 16) (d := 16) (Cert.Dense.addRowRow (n := 16) (d := 16) (Cert.Dense.matProd (n := 16) (K := 128) (M := 16) f0' f1') f2') i' := by
  subst h0 h1 h2 hi; rfl

/-- What the one point writes back is the whole result. -/
theorem flushed_eq (c : Dev nD) (t : Fin cfg6.N) :
    (dat6 V c).flushed 3 t = ((cfg6.win 3).blk t).view.read (Elt Ideal) (result V c) := by
  show (cfg6.win 3).cut (grid6.coords t) ((dat6 V c).after 3 t) = _
  rw [after6_3]
  unfold out6_3
  rw [View.canon_unit_zero zeroStart]
  simp only [View.ld_unit_zero (S := S16x128) zeroStart, View.ld_unit_zero (S := S128x16) zeroStart, View.ld_unit_zero (S := S1x16) zeroStart]
  obtain ⟨e0, e1, e2, e3, e4, e5, e6, e7⟩ := index_facts t
  funext j
  refine (congrFun (payload_eq _ _ _) j).trans ?_
  show _ = result V c (((cfg6.win 3).blk t).view.emb j)
  unfold result
  refine result_congr _ _ _ _ _ _ (funext (block0 V c t)) (funext (block1 V c t)) (funext (block2 V c t)) _ _ ?_
  funext a; apply Fin.ext
  match a with
  | ⟨0, _⟩ => show (j 0).val = win6_3.index t (0 : Fin 2) * 16 + 1 * (j 0).val; omega
  | ⟨1, _⟩ => show (j 1).val = win6_3.index t (1 : Fin 2) * 16 + 1 * (j 1).val; omega

/-- An index of the output array lies in the point's block iff each coordinate lies in the block's range. -/
theorem mem_block (t : Fin cfg6.N) (i : S16x16.Idx) :
    i ∈ ((cfg6.win 3).blk t).view.set ↔ ∀ a : Fin 2, win6_3.index t a * S16x16.size a ≤ (i a).val ∧ (i a).val < win6_3.index t a * S16x16.size a + S16x16.size a := by
  show i ∈ ((View.whole main_v90).slice (win6_3.rect t)).set ↔ _
  rw [View.set_slice_whole, Rect.mem_set_unit]
  exact Iff.rfl

/-- The one block covers the whole output. -/
theorem covered (i : S16x16.Idx) :
    ∃ t : Fin cfg6.N, (cfg6.win 3).flush t = true ∧ i ∈ ((cfg6.win 3).blk t).view.set := by
  have hi0 : (i 0).val < 16 := (i 0).isLt
  have hi1 : (i 1).val < 16 := (i 1).isLt
  refine ⟨⟨0, by decide⟩, flush6_3 _, ?_⟩
  obtain ⟨e0, e1, e2, e3, e4, e5, e6, e7⟩ := index_facts ⟨0, by decide⟩
  rw [mem_block]
  intro a
  match a with
  | ⟨0, _⟩ => show win6_3.index _ (0 : Fin 2) * 16 ≤ (i 0).val ∧ (i 0).val < win6_3.index _ (0 : Fin 2) * 16 + 16; omega
  | ⟨1, _⟩ => show win6_3.index _ (1 : Fin 2) * 16 ≤ (i 1).val ∧ (i 1).val < win6_3.index _ (1 : Fin 2) * 16 + 16; omega

/-- The output array after the region. -/
theorem final (c : Dev nD) : (dat6 V c).arrAt 3 cfg6.N = result V c :=
  (dat6 V c).arrAt_eq_of_cover 3 _ (fun t _ => flushed_eq V c t) covered

end Cert.KernelIdeal.Region6

end
-- ==== Proof.Walk.lean ====
/-
  Buffers that nothing rewrites between two points of the kernel's run keep their contents.

  The run's buffer contents are known at sixteen boundaries, `W0` (the launch memory) to `W16`: a stretch of host
  operations changes only the buffers its operations write, and a region changes only its windows' arrays. So the
  three graph vectors computed before the first region — the source indices, the target indices and the edge
  normalisation — are still there when the later layers read them, and each argument array is its launch contents
  wherever a host operation or a region reads it.
-/
import proofs.«140700_j71116068488094_1_alg».proof.Proof.Gen.KernelIdeal.Frame

set_option maxRecDepth 16384

noncomputable section

namespace Cert.KernelIdeal.Walk

open Cert.KernelIdeal Cert.KernelIdeal.Gen Idealize.ShloMosaic Idealize.ShloMosaic.TcCoe Idealize.SL.Sem

/-- One step back across a region: the buffer is none of the region's windows' arrays. -/
macro "back_region " l:ident : tactic => `(tactic| refine Eq.trans ($l _ _ _ _ (by decide)) ?_)

/-- One step back across a stretch of host operations: none of them writes the buffer. -/
macro "back_host" : tactic => `(tactic| refine Eq.trans (StableHlo.after_of_forall_not_mem _ _ (List.forall_iff_forall_mem.mp (by
    simp only [hostOps0, hostOps0_1, hostOps0_2, hostOps1, hostOps3, hostOps5, hostOps6, hostOps6_1, hostOps6_2,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) ?_)

variable {F : FTy → Type} [FloatOps F]
variable (m : (ℓ : Loc nD τ sig) → Buf (Elt F) ℓ) (ρ : Dev nD → PrngReg)

/-! ## The graph vectors, from their first use to the later ones -/

theorem src_4 (c : Dev nD) : W4 m ρ c (Proc.devRef .tc main_v3) = W3 m ρ c (Proc.devRef .tc main_v3) := by
  back_region W4_of_ne; rfl
theorem src_7 (c : Dev nD) : W7 m ρ c (Proc.devRef .tc main_v3) = W4 m ρ c (Proc.devRef .tc main_v3) := by
  back_region W7_of_ne; back_region W6_of_ne; back_host; rfl
theorem src_10 (c : Dev nD) : W10 m ρ c (Proc.devRef .tc main_v3) = W7 m ρ c (Proc.devRef .tc main_v3) := by
  back_region W10_of_ne; back_region W9_of_ne; back_host; rfl

theorem dst_4 (c : Dev nD) : W4 m ρ c (Proc.devRef .tc main_v6) = W3 m ρ c (Proc.devRef .tc main_v6) := by
  back_region W4_of_ne; rfl
theorem dst_7 (c : Dev nD) : W7 m ρ c (Proc.devRef .tc main_v6) = W4 m ρ c (Proc.devRef .tc main_v6) := by
  back_region W7_of_ne; back_region W6_of_ne; back_host; rfl
theorem dst_10 (c : Dev nD) : W10 m ρ c (Proc.devRef .tc main_v6) = W7 m ρ c (Proc.devRef .tc main_v6) := by
  back_region W10_of_ne; back_region W9_of_ne; back_host; rfl

theorem norm_4 (c : Dev nD) : W4 m ρ c (Proc.devRef .tc main_v29) = W3 m ρ c (Proc.devRef .tc main_v29) := by
  back_region W4_of_ne; rfl
theorem norm_7 (c : Dev nD) : W7 m ρ c (Proc.devRef .tc main_v29) = W4 m ρ c (Proc.devRef .tc main_v29) := by
  back_region W7_of_ne; back_region W6_of_ne; back_host; rfl
theorem norm_10 (c : Dev nD) : W10 m ρ c (Proc.devRef .tc main_v29) = W7 m ρ c (Proc.devRef .tc main_v29) := by
  back_region W10_of_ne; back_region W9_of_ne; back_host; rfl

/-! ## The arguments, where they are read -/

theorem arg0_3 (c : Dev nD) : W3 m ρ c (Proc.devRef .tc main_arg0) = m ((c : Thread nD τ).loc main_arg0) := by
  back_host; back_host; back_host; rfl

theorem arg2_12 (c : Dev nD) : W12 m ρ c (Proc.devRef .tc main_arg2) = m ((c : Thread nD τ).loc main_arg2) := by
  back_region W12_of_ne; back_host; back_region W10_of_ne; back_region W9_of_ne; back_host; back_region W7_of_ne; back_region W6_of_ne; back_host; back_region W4_of_ne; back_host; back_host; back_host; rfl

theorem arg3_3 (c : Dev nD) : W3 m ρ c (Proc.devRef .tc main_arg3) = m ((c : Thread nD τ).loc main_arg3) := by
  back_host; back_host; back_host; rfl

theorem arg4_4 (c : Dev nD) : W4 m ρ c (Proc.devRef .tc main_arg4) = m ((c : Thread nD τ).loc main_arg4) := by
  back_region W4_of_ne; back_host; back_host; back_host; rfl

theorem arg5_6 (c : Dev nD) : W6 m ρ c (Proc.devRef .tc main_arg5) = m ((c : Thread nD τ).loc main_arg5) := by
  back_region W6_of_ne; back_host; back_region W4_of_ne; back_host; back_host; back_host; rfl

theorem arg6_7 (c : Dev nD) : W7 m ρ c (Proc.devRef .tc main_arg6) = m ((c : Thread nD τ).loc main_arg6) := by
  back_region W7_of_ne; back_region W6_of_ne; back_host; back_region W4_of_ne; back_host; back_host; back_host; rfl

theorem arg7_9 (c : Dev nD) : W9 m ρ c (Proc.devRef .tc main_arg7) = m ((c : Thread nD τ).loc main_arg7) := by
  back_region W9_of_ne; back_host; back_region W7_of_ne; back_region W6_of_ne; back_host; back_region W4_of_ne; back_host; back_host; back_host; rfl

theorem arg8_10 (c : Dev nD) : W10 m ρ c (Proc.devRef .tc main_arg8) = m ((c : Thread nD τ).loc main_arg8) := by
  back_region W10_of_ne; back_region W9_of_ne; back_host; back_region W7_of_ne; back_region W6_of_ne; back_host; back_region W4_of_ne; back_host; back_host; back_host; rfl

theorem arg9_15 (c : Dev nD) : W15 m ρ c (Proc.devRef .tc main_arg9) = m ((c : Thread nD τ).loc main_arg9) := by
  back_host; back_host; back_host; back_region W12_of_ne; back_host; back_region W10_of_ne; back_region W9_of_ne; back_host; back_region W7_of_ne; back_region W6_of_ne; back_host; back_region W4_of_ne; back_host; back_host; back_host; rfl

theorem arg10_12 (c : Dev nD) : W12 m ρ c (Proc.devRef .tc main_arg10) = m ((c : Thread nD τ).loc main_arg10) := by
  back_region W12_of_ne; back_host; back_region W10_of_ne; back_region W9_of_ne; back_host; back_region W7_of_ne; back_region W6_of_ne; back_host; back_region W4_of_ne; back_host; back_host; back_host; rfl

end Cert.KernelIdeal.Walk

end
-- ==== Proof.LibHostRowMax.lean ====
/-
  The host's largest entry of each row of a matrix, read at an index — general in the extents.

  A one-operand reduction with a maximum body along the second axis of an `n × m` matrix reads, at `p`, the fold of
  `max`, from the initial value, over the entries `(p, k)` of row `p`: over the extended reals `max` is commutative and
  associative, so the order of the fold does not matter.  (The host-side twin of the vector unit's row maximum.)
-/
import Idealize.ShloMosaic.Lib.ValueIdx
import Idealize.ShloMosaic.PureOps.Ideal.Laws

noncomputable section

namespace Cert.LibHostRowMax

open Idealize.ShloMosaic Idealize.ShloMosaic.ValueIdx

/-- Over the extended reals the host's reduction by `max` of an `n × m` matrix along its second axis reads, at `p`, the
    fold of `max` from the initial value over `k` of the entries `(p, k)`. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduce FloatOps.maximumf x init h' hu (ix1 p)
      = (Finset.univ : Finset (Fin m)).fold max (init (Shape.Idx.first hu)) (fun k : Fin m => x (ix2 p k)) := by
  refine (Host.reduce_eq_fold_single FloatOps.maximumf x init h' h hu (ix1 p)).trans ?_
  have hf : (x ∘ h.lift (ix1 p)) = fun k : Fin m => x (ix2 p k) := funext fun k => congrArg x
    (funext fun c => Fin.ext (by match c with | ⟨0, _⟩ => rfl | ⟨1, _⟩ => rfl))
  exact congrArg (fun f => Finset.fold max (init (Shape.Idx.first hu)) f (Finset.univ : Finset (Fin m))) hf

end Cert.LibHostRowMax

end
-- ==== Proof.RefOps.lean ====
/-
  The reference's three dense steps, as the host spells them, are the specification's functions.

  * The host's `dot_general` of an n × 128 matrix with a 128 × M one is the textbook product (for the two extents the
    reference has: 100000 × 128 by 128 × 128, and 16 × 128 by 128 × 16).
  * A bias vector spread to a one-row matrix and then over all rows, added, and the maximum with the spread zero is the
    rectified bias step.
  * The host's row softmax — the row's top by a max-reduction from −∞ (met once more with −∞), the exponentials of the
    differences, their sum from zero, the quotient — is the specification's, the sum's zero start being the number 0.
-/
import proofs.«140700_j71116068488094_1_alg».proof.Proof.Gen.ReferenceIdeal
import proofs.«140700_j71116068488094_1_alg».proof.Proof.Spec
import proofs.«140700_j71116068488094_1_alg».proof.Proof.LibPlainDot
import proofs.«140700_j71116068488094_1_alg».proof.Proof.LibHostRowMax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Ops

open Cert.ReferenceIdeal Cert.ReferenceIdeal.Gen Idealize.ShloMosaic Idealize.ShloMosaic.TcCoe Idealize.ShloMosaic.ValueIdx

/-! ## The two matrix products -/

theorem dot_nodes (a : FVec Ideal S100000x128 .f32) (w : FVec Ideal S128x128 .f32) :
    Host.dotGeneral dot_S100000x128_S128x128_S100000x128_1_0_0_1_n_n none a w
      = Cert.Dense.matProd (n := 100000) (K := 128) (M := 128) a w := by
  funext i
  obtain ⟨p, q, rfl⟩ : ∃ (p : Fin 100000) (q : Fin 128), i = ix2 p q := ⟨i 0, i 1, eq_ix2 i⟩
  simp only [Host.dotGeneral]
  exact Cert.PlainDot.dotGeneral_apply (n := 100000) (K := 128) (M := 128) dot_S100000x128_S128x128_S100000x128_1_0_0_1_n_n rfl rfl
    (fun i q => by
      unfold DotDims.lhsIdx
      rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
      rfl)
    (fun i q => dot_S100000x128_S128x128_S100000x128_1_0_0_1_n_n.lhsIdx_val_of_single rfl i q)
    (fun i q => dot_S100000x128_S128x128_S100000x128_1_0_0_1_n_n.rhsIdx_val_of_single rfl i q)
    (fun i q => by
      unfold DotDims.rhsIdx
      rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
      rfl)
    none _ a w p q

theorem dot_graphs (a : FVec Ideal S16x128 .f32) (w : FVec Ideal S128x16 .f32) :
    Host.dotGeneral dot_S16x128_S128x16_S16x16_1_0_0_1_n_n none a w
      = Cert.Dense.matProd (n := 16) (K := 128) (M := 16) a w := by
  funext i
  obtain ⟨p, q, rfl⟩ : ∃ (p : Fin 16) (q : Fin 16), i = ix2 p q := ⟨i 0, i 1, eq_ix2 i⟩
  simp only [Host.dotGeneral]
  exact Cert.PlainDot.dotGeneral_apply (n := 16) (K := 128) (M := 16) dot_S16x128_S128x16_S16x16_1_0_0_1_n_n rfl rfl
    (fun i q => by
      unfold DotDims.lhsIdx
      rw [dif_neg (show ¬(0 : Fin S16x128.rank) ∈ dot_S16x128_S128x16_S16x16_1_0_0_1_n_n.lhsBatch by decide), dif_pos (show (0 : Fin S16x128.rank) ∈ dot_S16x128_S128x16_S16x16_1_0_0_1_n_n.lhsNonContracting by decide)]
      rfl)
    (fun i q => dot_S16x128_S128x16_S16x16_1_0_0_1_n_n.lhsIdx_val_of_single rfl i q)
    (fun i q => dot_S16x128_S128x16_S16x16_1_0_0_1_n_n.rhsIdx_val_of_single rfl i q)
    (fun i q => by
      unfold DotDims.rhsIdx
      rw [dif_neg (show ¬(1 : Fin S128x16.rank) ∈ dot_S16x128_S128x16_S16x16_1_0_0_1_n_n.rhsBatch by decide), dif_pos (show (1 : Fin S128x16.rank) ∈ dot_S16x128_S128x16_S16x16_1_0_0_1_n_n.rhsNonContracting by decide)]
      rfl)
    none _ a w p q

/-! ## The bias and the rectifier -/

theorem bias_relu (a : FVec Ideal S100000x128 .f32) (b : FVec Ideal S128 .f32) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Dense.biasRelu (n := 100000) (d := 128) a b := by
  funext i
  obtain ⟨p, q, rfl⟩ : ∃ (p : Fin 100000) (q : Fin 128), i = ix2 p q := ⟨i 0, i 1, eq_ix2 i⟩
  rw [maximumf_apply, addf_apply,
    broadcastInDim_apply ![0, 1] bcast_S1x128_S100000x128_0_1 _ (ix2 p q) (ix2 (0 : Fin 1) q)
      (fun ax => by match ax with | ⟨0, _⟩ => rfl | ⟨1, _⟩ => rfl),
    broadcastInDim_apply ![1] bcast_S128_S1x128_1 b (ix2 (0 : Fin 1) q) (ix1 q)
      (fun ax => by match ax with | ⟨0, _⟩ => rfl),
    broadcastInDim_apply ![] bcast_S_S100000x128 _ (ix2 p q) ix0 (fun ax => ax.elim0)]
  rfl

/-! ## The logits' bias and the row softmax -/

theorem add_row (a : FVec Ideal S16x16 .f32) (b : FVec Ideal S16 .f32) :
    addf a (broadcastInDim S16x16 ![0, 1] bcast_S1x16_S16x16_0_1 (broadcastInDim S1x16 ![1] bcast_S16_S1x16_1 b))
      = Cert.Dense.addRow (n := 16) (d := 16) a b := by
  funext i
  obtain ⟨p, q, rfl⟩ : ∃ (p : Fin 16) (q : Fin 16), i = ix2 p q := ⟨i 0, i 1, eq_ix2 i⟩
  rw [addf_apply,
    broadcastInDim_apply ![0, 1] bcast_S1x16_S16x16_0_1 _ (ix2 p q) (ix2 (0 : Fin 1) q)
      (fun ax => by match ax with | ⟨0, _⟩ => rfl | ⟨1, _⟩ => rfl),
    broadcastInDim_apply ![1] bcast_S16_S1x16_1 b (ix2 (0 : Fin 1) q) (ix1 q)
      (fun ax => by match ax with | ⟨0, _⟩ => rfl)]
  rfl

/-- A vector of 16 spread to a column and then over the 16 columns reads, at (p, c), its entry p. -/
theorem spread_col (v : FVec Ideal S16 .f32) (p : Fin 16) (q : Fin 16) :
    broadcastInDim S16x16 ![0, 1] bcast_S16x1_S16x16_0_1 (broadcastInDim S16x1 ![0] bcast_S16_S16x1_0 v) (ix2 p q) = v (ix1 p) := by
  rw [broadcastInDim_apply ![0, 1] bcast_S16x1_S16x16_0_1 _ (ix2 p q) (ix2 p (0 : Fin 1))
      (fun ax => by match ax with | ⟨0, _⟩ => rfl | ⟨1, _⟩ => rfl),
    broadcastInDim_apply ![0] bcast_S16_S16x1_0 v (ix2 p (0 : Fin 1)) (ix1 p)
      (fun ax => by match ax with | ⟨0, _⟩ => rfl)]

/-- The host's row sum from a start value. -/
theorem row_sum (y : FVec Ideal S16x16 .f32) (init : FVec Ideal S_ .f32) (p : Fin 16) :
    Host.reduceAdd y init reducesTo_S16x16_S16_d1 h_S_ (ix1 p) = init (Shape.Idx.first h_S_) + ∑ k : Fin 16, y (ix2 p k) := by
  simp only [Host.reduceAdd, Ideal.hostReduceAdd_def]
  rw [Ideal.hostReduceAdd_single reducesTo_S16x16_S16_d1 (by decide)]
  refine congrArg (_ + ·) (Finset.sum_congr rfl fun k _ => ?_)
  exact congrArg y (funext fun a => Fin.ext (by match a with | ⟨0, _⟩ => rfl | ⟨1, _⟩ => rfl))

/-- The host's row softmax, as the reference spells it. -/
def hostSoftmax (z : FVec Ideal S16x16 .f32) : FVec Ideal S16x16 .f32 :=
  Host.divf
    (Host.exp (subf z (broadcastInDim S16x16 ![0, 1] bcast_S16x1_S16x16_0_1 (broadcastInDim S16x1 ![0] bcast_S16_S16x1_0
      (maximumf (broadcastInDim S16 ![] bcast_S_S16 (constant (F := Ideal) S_ .f32 0xFF800000#32))
        (Host.reduce FloatOps.maximumf z (constant (F := Ideal) S_ .f32 0xFF800000#32) reducesTo_S16x16_S16_d1 h_S_))))))
    (broadcastInDim S16x16 ![0, 1] bcast_S16x1_S16x16_0_1 (broadcastInDim S16x1 ![0] bcast_S16_S16x1_0
      (Host.reduceAdd
        (Host.exp (subf z (broadcastInDim S16x16 ![0, 1] bcast_S16x1_S16x16_0_1 (broadcastInDim S16x1 ![0] bcast_S16_S16x1_0
          (maximumf (broadcastInDim S16 ![] bcast_S_S16 (constant (F := Ideal) S_ .f32 0xFF800000#32))
            (Host.reduce FloatOps.maximumf z (constant (F := Ideal) S_ .f32 0xFF800000#32) reducesTo_S16x16_S16_d1 h_S_))))))
        (constant (F := Ideal) S_ .f32 0x00000000#32) reducesTo_S16x16_S16_d1 h_S_)))

/-- The row's top, as the host computes it. -/
theorem row_top (z : FVec Ideal S16x16 .f32) (p : Fin 16) :
    maximumf (broadcastInDim S16 ![] bcast_S_S16 (constant (F := Ideal) S_ .f32 0xFF800000#32))
        (Host.reduce FloatOps.maximumf z (constant (F := Ideal) S_ .f32 0xFF800000#32) reducesTo_S16x16_S16_d1 h_S_) (ix1 p)
      = Cert.Dense.rowTop (n := 16) (d := 16) z p := by
  rw [maximumf_apply, broadcastInDim_apply ![] bcast_S_S16 _ (ix1 p) ix0 (fun ax => ax.elim0),
    Cert.LibHostRowMax.hostRowMax_apply z _ reducesTo_S16x16_S16_d1 (by decide) h_S_ p]
  rfl

theorem hostSoftmax_eq (z : FVec Ideal S16x16 .f32) : hostSoftmax z = Cert.Dense.softmaxRows (n := 16) (d := 16) z := by
  funext i
  obtain ⟨p, q, rfl⟩ : ∃ (p : Fin 16) (q : Fin 16), i = ix2 p q := ⟨i 0, i 1, eq_ix2 i⟩
  unfold hostSoftmax
  show Ideal.div (Ideal.exp (z (ix2 p q) - _)) _ = _
  rw [spread_col, spread_col, row_top, row_sum]
  rw [Cert.Dense.softmaxRows_apply]
  show Ideal.div _ (Ideal.ofBits .f32 0x00000000#32 + ∑ k : Fin 16, Ideal.exp (z (ix2 p k) - _)) = _
  rw [Ideal.ofBits_zero_f32, zero_add]
  refine congrArg (Ideal.div _) (Finset.sum_congr rfl fun k _ => ?_)
  rw [spread_col, row_top]

end Cert.ReferenceIdeal.Ops

end
-- ==== Proof.Chain.lean ====
/-
  The idealized kernel's buffers, boundary by boundary, are the reference's stages at the launch arguments.

  Both programs build the same graph vectors — source indices, target indices and the edge normalisation — with the same
  host operations, and then run three layers  h ↦ relu (aggregate (h · W) + b),  a mean pool over the graphs, and a linear
  layer with a row softmax. The kernel does the matrix products, the bias-and-rectifier steps and the last layer in
  regions; the reference does them on the host. At every boundary of the kernel's run the buffer the next step reads
  holds the reference's stage of the same name-by-meaning, as a function of the eleven launch arrays:

    graph vectors  →  product₁ → aggregate₁ → layer₁ → product₂ → aggregate₂ → layer₂ → product₃ → aggregate₃ → layer₃
                   →  pooled → probabilities.

  A region's output is its specification function of its operands (the Region modules), the reference's host operation
  is the same function (the reference's operations module), a stretch of host operations is read off its list, and the
  buffers a stretch reads from earlier boundaries are walked back (the walk module).
-/
import proofs.«140700_j71116068488094_1_alg».proof.Proof.Gen.KernelIdeal.Frame
import proofs.«140700_j71116068488094_1_alg».proof.Proof.Region0
import proofs.«140700_j71116068488094_1_alg».proof.Proof.Region1
import proofs.«140700_j71116068488094_1_alg».proof.Proof.Region2
import proofs.«140700_j71116068488094_1_alg».proof.Proof.Region3
import proofs.«140700_j71116068488094_1_alg».proof.Proof.Region4
import proofs.«140700_j71116068488094_1_alg».proof.Proof.Region5
import proofs.«140700_j71116068488094_1_alg».proof.Proof.Region6
import proofs.«140700_j71116068488094_1_alg».proof.Proof.Walk
import proofs.«140700_j71116068488094_1_alg».proof.Proof.ReadPatched
import proofs.«140700_j71116068488094_1_alg».proof.Proof.RefOps
import Idealize.ShloMosaic.Lib.StableHlo.Run
import Idealize.ShloMosaic.Lib.ValueLayout

set_option maxRecDepth 16384
set_option maxHeartbeats 4000000

noncomputable section

namespace Cert.KernelIdeal.Chain

open Cert.KernelIdeal Cert.KernelIdeal.Gen Idealize.ShloMosaic Idealize.ShloMosaic.TcCoe Idealize.SL.Sem

open Idealize.ShloMosaic.ValueIdx Idealize.ShloMosaic.StableHlo
open Cert.KernelIdeal.Walk Cert.ReferenceIdeal.ReadP

variable (m : (ℓ : Loc nD τ sig) → Buf (Elt Ideal) ℓ) (ρ : Dev nD → PrngReg)

/-! ## The graph vectors

The first stretch builds the two index vectors, the degrees' positivity mask and their inverse square roots; the second
is the selection between the inverse square root and zero; the third gathers that vector at the wrapped source and target
indices and multiplies: the edge normalisation. Each step is read off its own stretch, with what the earlier stretch left. -/

theorem src1 (c : Dev nD) : W1 m ρ c (Proc.devRef .tc main_v3) = val_main_v3 (F := Ideal) (m ((c : Thread nD τ).loc main_arg1)) := by
  dsimp only [W1, hostOps0]
  after_results_simp
  rfl
theorem dst1 (c : Dev nD) : W1 m ρ c (Proc.devRef .tc main_v6) = val_main_v6 (F := Ideal) (m ((c : Thread nD τ).loc main_arg1)) := by
  dsimp only [W1, hostOps0]
  after_results_simp
  rfl
theorem mask1 (c : Dev nD) : W1 m ρ c (Proc.devRef .tc main_v12) = val_main_v13 (F := Ideal) (m ((c : Thread nD τ).loc main_arg1)) := by
  dsimp only [W1, hostOps0]
  after_results_simp
  rfl
theorem rsqrt1 (c : Dev nD) : W1 m ρ c (Proc.devRef .tc main_v13) = val_main_v14 (F := Ideal) (m ((c : Thread nD τ).loc main_arg1)) := by
  dsimp only [W1, hostOps0]
  after_results_simp
  rfl
theorem zero1 (c : Dev nD) : W1 m ρ c (Proc.devRef .tc main_cst_2) = val_main_cst_2 (F := Ideal) := by
  dsimp only [W1, hostOps0]
  after_results_simp
  rfl

/-- The selection read through the typed references of the called function's buffers is the plain selection: each of
    those transports is along an equation between a buffer's declared type and itself. -/
theorem where_casts (a : (⟨Cert.ReferenceIdeal.S100000, .i1⟩ : BufTy).Contents (Elt Ideal)) (b : (⟨Cert.ReferenceIdeal.S100000, .f32⟩ : BufTy).Contents (Elt Ideal))
    (z : (⟨Cert.ReferenceIdeal.S_, .f32⟩ : BufTy).Contents (Elt Ideal)) :
    (TRef.of (sig := sig) (T := ⟨S100000, .f32⟩) main_v14).toBuf (Val := Elt Ideal) (select ((TRef.of (sig := sig) (T := ⟨S100000, .i1⟩) main_v12).ofBuf (Val := Elt Ideal) a) ((TRef.of (sig := sig) (T := ⟨S100000, .f32⟩) main_v13).ofBuf (Val := Elt Ideal) b)
      ((TRef.of (sig := sig) (T := ⟨S100000, .f32⟩) main_call0_v1).ofBuf (Val := Elt Ideal) ((TRef.of (sig := sig) (T := ⟨S100000, .f32⟩) main_call0_v1).toBuf (Val := Elt Ideal)
        (broadcastInDim S100000 ![] bcast_S_S100000 ((TRef.of (sig := sig) (T := ⟨S_, .f32⟩) main_call0_v0).ofBuf (Val := Elt Ideal) ((TRef.of (sig := sig) (T := ⟨S_, .f32⟩) main_call0_v0).toBuf (Val := Elt Ideal) (id ((TRef.of (sig := sig) (T := ⟨S_, .f32⟩) main_cst_2).ofBuf (Val := Elt Ideal) z))))))))
    = select a b (broadcastInDim Cert.ReferenceIdeal.S100000 ![] Cert.ReferenceIdeal.Gen.bcast_S_S100000 (id z)) := rfl

/-- The selection, from whatever contents hold the mask, the inverse square roots and the zero. -/
theorem dinv_of (X : Valuation τ sig (Elt Ideal)) (x1 : (⟨Cert.ReferenceIdeal.S2x1600000, .i32⟩ : BufTy).Contents (Elt Ideal))
    (hmask : X (Proc.devRef .tc main_v12) = val_main_v13 (F := Ideal) x1)
    (hrsqrt : X (Proc.devRef .tc main_v13) = val_main_v14 (F := Ideal) x1)
    (hzero : X (Proc.devRef .tc main_cst_2) = val_main_cst_2 (F := Ideal)) :
    after hostOps0_1 X (Proc.devRef .tc main_v14) = val_main_v15 (F := Ideal) x1 := by
  dsimp only [hostOps0_1]
  after_results_simp
  rw [hmask, hrsqrt, hzero]
  exact where_casts _ _ _
theorem dinv2 (c : Dev nD) : W2 m ρ c (Proc.devRef .tc main_v14) = val_main_v15 (F := Ideal) (m ((c : Thread nD τ).loc main_arg1)) :=
  dinv_of (W1 m ρ c) _ (mask1 m ρ c) (rsqrt1 m ρ c) (zero1 m ρ c)
theorem src2 (c : Dev nD) : W2 m ρ c (Proc.devRef .tc main_v3) = val_main_v3 (F := Ideal) (m ((c : Thread nD τ).loc main_arg1)) := by
  back_host; exact src1 m ρ c
theorem dst2 (c : Dev nD) : W2 m ρ c (Proc.devRef .tc main_v6) = val_main_v6 (F := Ideal) (m ((c : Thread nD τ).loc main_arg1)) := by
  back_host; exact dst1 m ρ c

theorem graph_src (c : Dev nD) : W3 m ρ c (Proc.devRef .tc main_v3) = val_main_v3 (F := Ideal) (m ((c : Thread nD τ).loc main_arg1)) := by
  back_host; exact src2 m ρ c
theorem graph_dst (c : Dev nD) : W3 m ρ c (Proc.devRef .tc main_v6) = val_main_v6 (F := Ideal) (m ((c : Thread nD τ).loc main_arg1)) := by
  back_host; exact dst2 m ρ c
/-- The edge normalisation, from whatever contents hold the selected vector and the two index vectors. -/
theorem norm_of (X : Valuation τ sig (Elt Ideal)) (x1 : (⟨Cert.ReferenceIdeal.S2x1600000, .i32⟩ : BufTy).Contents (Elt Ideal))
    (hdinv : X (Proc.devRef .tc main_v14) = val_main_v15 (F := Ideal) x1)
    (hsrc : X (Proc.devRef .tc main_v3) = val_main_v3 (F := Ideal) x1)
    (hdst : X (Proc.devRef .tc main_v6) = val_main_v6 (F := Ideal) x1) :
    after hostOps0_2 X (Proc.devRef .tc main_v29) = val_main_v30 (F := Ideal) x1 := by
  dsimp only [hostOps0_2]
  after_results_simp
  rw [hdinv, hsrc, hdst]
  simp only [val_main_v30, val_main_v29, val_main_v28, val_main_v27, val_main_v26, val_main_v25, val_main_v24, val_main_v23,
    val_main_v22, val_main_v21, val_main_v20, val_main_v19, val_main_v18, val_main_v17, val_main_v16,
    val_main_c, val_main_c_3, val_main_c_4, val_main_c_5]
  generalize val_main_v15 (F := Ideal) x1 = d
  generalize val_main_v3 (F := Ideal) x1 = s
  generalize val_main_v6 (F := Ideal) x1 = e
  rfl
theorem graph_norm (c : Dev nD) : W3 m ρ c (Proc.devRef .tc main_v29) = val_main_v30 (F := Ideal) (m ((c : Thread nD τ).loc main_arg1)) :=
  norm_of (W2 m ρ c) _ (dinv2 m ρ c) (src2 m ρ c) (dst2 m ρ c)

/-! ## Layer 1 -/

theorem product1 (c : Dev nD) : W4 m ρ c (Proc.devRef .tc main_v30) = val_main_v7 (F := Ideal) (m ((c : Thread nD τ).loc main_arg0)) (m ((c : Thread nD τ).loc main_arg3)) := by
  refine (W4_arr m ρ c 2).trans ?_
  refine (Cert.KernelIdeal.Region0.final (V3 m ρ) c).trans ?_
  show Cert.Dense.matProd (n := 100000) (K := 128) (M := 128) (W3 m ρ c (Proc.devRef .tc main_arg0)) (W3 m ρ c (Proc.devRef .tc main_arg3)) = _
  rw [arg0_3, arg3_3]
  exact (Cert.ReferenceIdeal.Ops.dot_nodes _ _).symm

theorem aggregate1 (c : Dev nD) : W5 m ρ c (Proc.devRef .tc main_v43) = val_main_v43 (F := Ideal) (m ((c : Thread nD τ).loc main_arg0)) (m ((c : Thread nD τ).loc main_arg1)) (m ((c : Thread nD τ).loc main_arg3)) := by
  dsimp only [W15, W14, W13, W11, W8, W5, W3, W2, W1, hostOps0, hostOps0_1, hostOps0_2, hostOps1, hostOps3, hostOps5,
    hostOps6, hostOps6_1, hostOps6_2]
  after_results_simp
  rw [product1 m ρ c, src_4, dst_4, norm_4, graph_src m ρ c, graph_dst m ρ c, graph_norm m ρ c]
  rfl

theorem biasRow1 (c : Dev nD) : W5 m ρ c (Proc.devRef .tc main_v44) = shapeCast S1x128 (m ((c : Thread nD τ).loc main_arg4)) shapeCasts_S128_S1x128 := by
  dsimp only [W15, W14, W13, W11, W8, W5, W3, W2, W1, hostOps0, hostOps0_1, hostOps0_2, hostOps1, hostOps3, hostOps5,
    hostOps6, hostOps6_1, hostOps6_2]
  after_results_simp
  rw [arg4_4]
  rfl

theorem layer1 (c : Dev nD) : W6 m ρ c (Proc.devRef .tc main_v45) = val_main_v47 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  refine (Cert.KernelIdeal.Region1.final (V5 m ρ) c).trans ?_
  show Cert.Dense.biasReluRow (n := 100000) (d := 128) (W5 m ρ c (Proc.devRef .tc main_v43)) (W5 m ρ c (Proc.devRef .tc main_v44)) = _
  rw [aggregate1 m ρ c, biasRow1 m ρ c]
  rw [Cert.Dense.biasReluRow_eq _ _ (m ((c : Thread nD τ).loc main_arg4)) (fun q => shapeCast_a_1a_apply _ _ (0 : Fin 1) q)]
  exact (Cert.ReferenceIdeal.Ops.bias_relu _ _).symm

/-! ## Layer 2 -/

theorem product2 (c : Dev nD) : W7 m ρ c (Proc.devRef .tc main_v46) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ?_
  refine (Cert.KernelIdeal.Region2.final (V6 m ρ) c).trans ?_
  show Cert.Dense.matProd (n := 100000) (K := 128) (M := 128) (W6 m ρ c (Proc.devRef .tc main_v45)) (W6 m ρ c (Proc.devRef .tc main_arg5)) = _
  rw [layer1 m ρ c, arg5_6]
  exact (Cert.ReferenceIdeal.Ops.dot_nodes _ _).symm

theorem aggregate2 (c : Dev nD) : W8 m ρ c (Proc.devRef .tc main_v59) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [W15, W14, W13, W11, W8, W5, W3, W2, W1, hostOps0, hostOps0_1, hostOps0_2, hostOps1, hostOps3, hostOps5,
    hostOps6, hostOps6_1, hostOps6_2]
  after_results_simp
  rw [product2 m ρ c, src_7, dst_7, norm_7, src_4, dst_4, norm_4, graph_src m ρ c, graph_dst m ρ c, graph_norm m ρ c]
  rfl

theorem biasRow2 (c : Dev nD) : W8 m ρ c (Proc.devRef .tc main_v60) = shapeCast S1x128 (m ((c : Thread nD τ).loc main_arg6)) shapeCasts_S128_S1x128 := by
  dsimp only [W15, W14, W13, W11, W8, W5, W3, W2, W1, hostOps0, hostOps0_1, hostOps0_2, hostOps1, hostOps3, hostOps5,
    hostOps6, hostOps6_1, hostOps6_2]
  after_results_simp
  rw [arg6_7]
  rfl

theorem layer2 (c : Dev nD) : W9 m ρ c (Proc.devRef .tc main_v61) = val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ?_
  refine (Cert.KernelIdeal.Region3.final (V8 m ρ) c).trans ?_
  show Cert.Dense.biasReluRow (n := 100000) (d := 128) (W8 m ρ c (Proc.devRef .tc main_v59)) (W8 m ρ c (Proc.devRef .tc main_v60)) = _
  rw [aggregate2 m ρ c, biasRow2 m ρ c]
  rw [Cert.Dense.biasReluRow_eq _ _ (m ((c : Thread nD τ).loc main_arg6)) (fun q => shapeCast_a_1a_apply _ _ (0 : Fin 1) q)]
  exact (Cert.ReferenceIdeal.Ops.bias_relu _ _).symm

/-! ## Layer 3 -/

theorem product3 (c : Dev nD) : W10 m ρ c (Proc.devRef .tc main_v62) = val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Cert.KernelIdeal.Region4.final (V9 m ρ) c).trans ?_
  show Cert.Dense.matProd (n := 100000) (K := 128) (M := 128) (W9 m ρ c (Proc.devRef .tc main_v61)) (W9 m ρ c (Proc.devRef .tc main_arg7)) = _
  rw [layer2 m ρ c, arg7_9]
  exact (Cert.ReferenceIdeal.Ops.dot_nodes _ _).symm

theorem aggregate3 (c : Dev nD) : W11 m ρ c (Proc.devRef .tc main_v75) = val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W15, W14, W13, W11, W8, W5, W3, W2, W1, hostOps0, hostOps0_1, hostOps0_2, hostOps1, hostOps3, hostOps5,
    hostOps6, hostOps6_1, hostOps6_2]
  after_results_simp
  rw [product3 m ρ c, src_10, dst_10, norm_10, src_7, dst_7, norm_7, src_4, dst_4, norm_4, graph_src m ρ c, graph_dst m ρ c, graph_norm m ρ c]
  rfl

theorem biasRow3 (c : Dev nD) : W11 m ρ c (Proc.devRef .tc main_v76) = shapeCast S1x128 (m ((c : Thread nD τ).loc main_arg8)) shapeCasts_S128_S1x128 := by
  dsimp only [W15, W14, W13, W11, W8, W5, W3, W2, W1, hostOps0, hostOps0_1, hostOps0_2, hostOps1, hostOps3, hostOps5,
    hostOps6, hostOps6_1, hostOps6_2]
  after_results_simp
  rw [arg8_10]
  rfl

theorem layer3 (c : Dev nD) : W12 m ρ c (Proc.devRef .tc main_v77) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  refine (Cert.KernelIdeal.Region5.final (V11 m ρ) c).trans ?_
  show Cert.Dense.biasReluRow (n := 100000) (d := 128) (W11 m ρ c (Proc.devRef .tc main_v75)) (W11 m ρ c (Proc.devRef .tc main_v76)) = _
  rw [aggregate3 m ρ c, biasRow3 m ρ c]
  rw [Cert.Dense.biasReluRow_eq _ _ (m ((c : Thread nD τ).loc main_arg8)) (fun q => shapeCast_a_1a_apply _ _ (0 : Fin 1) q)]
  exact (Cert.ReferenceIdeal.Ops.bias_relu _ _).symm

/-! ## The pool and the last layer -/

theorem pooled (c : Dev nD) : W15 m ρ c (Proc.devRef .tc main_v88) = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W15, W14, W13, W11, W8, W5, W3, W2, W1, hostOps0, hostOps0_1, hostOps0_2, hostOps1, hostOps3, hostOps5,
    hostOps6, hostOps6_1, hostOps6_2]
  after_results_simp
  rw [layer3 m ρ c, arg2_12]
  rfl

theorem biasRowOut (c : Dev nD) : W15 m ρ c (Proc.devRef .tc main_v89) = shapeCast S1x16 (m ((c : Thread nD τ).loc main_arg10)) shapeCasts_S16_S1x16 := by
  dsimp only [W15, W14, W13, W11, W8, W5, W3, W2, W1, hostOps0, hostOps0_1, hostOps0_2, hostOps1, hostOps3, hostOps5,
    hostOps6, hostOps6_1, hostOps6_2]
  after_results_simp
  rw [arg10_12]
  rfl

theorem probabilities (c : Dev nD) :
    W16 m ρ c (Proc.devRef .tc main_v90) = val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 3).trans ?_
  refine (Cert.KernelIdeal.Region6.final (V15 m ρ) c).trans ?_
  show Cert.Dense.softmaxRows (n := 16) (d := 16) (Cert.Dense.addRowRow (n := 16) (d := 16)
    (Cert.Dense.matProd (n := 16) (K := 128) (M := 16) (W15 m ρ c (Proc.devRef .tc main_v88)) (W15 m ρ c (Proc.devRef .tc main_arg9)))
    (W15 m ρ c (Proc.devRef .tc main_v89))) = _
  rw [pooled m ρ c, arg9_15, biasRowOut m ρ c]
  rw [Cert.Dense.addRowRow_eq _ _ (m ((c : Thread nD τ).loc main_arg10)) (fun q => shapeCast_a_1a_apply _ _ (0 : Fin 1) q)]
  have h1 : val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = Cert.ReferenceIdeal.Ops.hostSoftmax (val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := rfl
  have h2 : val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = Cert.Dense.addRow (n := 16) (d := 16) (val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
    Cert.ReferenceIdeal.Ops.add_row _ _
  have h3 : val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = Cert.Dense.matProd (n := 16) (K := 128) (M := 16) (val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) :=
    Cert.ReferenceIdeal.Ops.dot_graphs _ _
  rw [h1, Cert.ReferenceIdeal.Ops.hostSoftmax_eq, h2, h3]

end Cert.KernelIdeal.Chain

end
-- ==== Proof.Claims.lean ====
/-
  The five claims.

  The three frames are the programs' runs with the results dropped: the word-level kernel's and the idealized kernel's by
  their frame certificates, the reference's by its run. Nothing was rewritten between the kernel and its idealization, so
  `preserves` asks nothing. For `algebraic`: the idealized kernel's run ends with its result at what the last region
  leaves, and that is the reference's last stage at the launch arguments (the chain); the reference's run ends with its
  result at the same stage of its own arguments; and the two programs' arguments agree.
-/
import proofs.«140700_j71116068488094_1_alg».proof.Defs
import proofs.«140700_j71116068488094_1_alg».proof.Proof.Gen.Kernel
import proofs.«140700_j71116068488094_1_alg».proof.Proof.Gen.Kernel.Frame
import proofs.«140700_j71116068488094_1_alg».proof.Proof.Gen.KernelIdeal
import proofs.«140700_j71116068488094_1_alg».proof.Proof.Gen.KernelIdeal.Frame
import proofs.«140700_j71116068488094_1_alg».proof.Proof.Gen.ReferenceIdeal
import proofs.«140700_j71116068488094_1_alg».proof.Proof.Gen.Pre_finite_inputs
import proofs.«140700_j71116068488094_1_alg».proof.Proof.ResultRun
import proofs.«140700_j71116068488094_1_alg».proof.Proof.RunPatched
import proofs.«140700_j71116068488094_1_alg».proof.Proof.ReadPatched
import proofs.«140700_j71116068488094_1_alg».proof.Proof.Chain

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.W16 m ρ c (Proc.devRef .tc Cert.KernelIdeal.main_v90),
    Cert.KernelIdeal.ResultRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v155_eq, h0, h1, h2, h3, h4, h5, h6, h7, h8, h9, h10]
  exact (Cert.KernelIdeal.Chain.probabilities m ρ c).symm

end Cert.Proof.Claims

end
-- ==== Proof.lean ====
/- The proof of `Cert.Claim`: a three-layer graph convolution network with a mean pool and a softmax head, whose dense steps
   the kernel runs in seven tiled regions and the reference on the host, computes the same sixteen-by-sixteen array of
   probabilities on the extended reals.
   Each region's output array is one whole-array function of its operands — a matrix product, a bias row and rectifier, or
   the last layer with its row softmax (Proof/Region0 … Region6, over Proof/Spec) —, the reference's host operations are the
   same functions (Proof/RefOps), the host operations between the regions are the reference's own, read off their lists
   with the buffers they reuse walked back (Proof/Walk, Proof/Chain), and the claims are assembled in Proof/Claims behind the
   witnesses of the programs' stated facts. -/
import proofs.«140700_j71116068488094_1_alg».proof.Defs
import proofs.«140700_j71116068488094_1_alg».proof.Proof.Gen.Kernel
import proofs.«140700_j71116068488094_1_alg».proof.Proof.Gen.Kernel.Skeleton
import proofs.«140700_j71116068488094_1_alg».proof.Proof.Gen.Kernel.Launch
import proofs.«140700_j71116068488094_1_alg».proof.Proof.Gen.Kernel.Points
import proofs.«140700_j71116068488094_1_alg».proof.Proof.Gen.Kernel.Frame
import proofs.«140700_j71116068488094_1_alg».proof.Proof.Gen.KernelIdeal
import proofs.«140700_j71116068488094_1_alg».proof.Proof.Gen.KernelIdeal.Skeleton
import proofs.«140700_j71116068488094_1_alg».proof.Proof.Gen.KernelIdeal.Launch
import proofs.«140700_j71116068488094_1_alg».proof.Proof.Gen.KernelIdeal.Points
import proofs.«140700_j71116068488094_1_alg».proof.Proof.Gen.KernelIdeal.Frame
import proofs.«140700_j71116068488094_1_alg».proof.Proof.Gen.ReferenceIdeal
import proofs.«140700_j71116068488094_1_alg».proof.Proof.Gen.Pre_finite_inputs
import proofs.«140700_j71116068488094_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_kernel, Claims.frame_kernelIdeal, Claims.frame_referenceIdeal, Claims.preserves, Claims.algebraic⟩

end Cert.Proof

end
